-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "norm_eps_sq" .f32 0x179ABE15#32 ((5316911940649 / 5316911983139663491615228241121378304 : ℝ) : EReal)
  ∧ IdealRules.named_const.Statement Cert.KernelIdeal.κ "norm_eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  reduces_S1024x1024_S1024 : S1024x1024.Reduces [1] S1024
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S256x1024 : Shape := ⟨2, ![256, 1024]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x256, .f32⟩
  | .hbm, ⟨11, _⟩ => ⟨S16384x256, .f32⟩
  | .hbm, ⟨12, _⟩ => ⟨S1024x256, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x256, .f32⟩
  | .hbm, ⟨21, _⟩ => ⟨S1024x256, .f32⟩
  | .hbm, ⟨22, _⟩ => ⟨S256x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  reducesTo_S1024x256_S1024_d1 : S1024x256.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  transposes_S1024x256_S256x1024_1_0 : S1024x256.Transposes [1, 0] S256x1024
  reducesTo_S16384x1024_S16384_d1 : S16384x1024.ReducesTo [1] S16384
  bcast_S_S16384 : S_.BroadcastsInDim S16384 (![] : Fin 0 → Fin S16384.rank)
  bcast_S16384x1_S16384x1024_0_1 : S16384x1.BroadcastsInDim S16384x1024 (![0, 1] : Fin 2 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.Law.lean ====
/-
  Softmax retrieval over unit-normalised rows, written two ways, and the law that joins them.

  For a query row `x` (indexed by the feature type `ι`) and memory rows `M n` (`n : ν`), both programs compute

      out h = Σ_n softmax_n (⟨x̂, M̂ n⟩) · M n h,      x̂ = x / max (‖x‖, ε),  M̂ n = M n / max (‖M n‖, ε).

  * The first way (`outK`) scales by the reciprocal square root of `max (‖x‖², c)`, exponentiates the similarities as
    they are, and divides ONCE at the end: `(Σ_n e^{s n} · M n h) · (1 / Σ_n e^{s n})`.
  * The second way (`outR`) divides by `max (√‖x‖², d)`, subtracts a shift `mx` (the row maximum) before
    exponentiating, and divides every weight: `Σ_n (e^{s n - mx} / Σ_j e^{s j - mx}) · M n h`.

  On REAL inputs, with `c = d²` and `d > 0`, the two agree (`outK_eq_outR`):
  `√(max (s, d²)) = max (√s, d)` for `s ≥ 0`, so the two normalisations are one real factor; the shift cancels between
  numerator and denominator (`e^{s - mx} = e^s / e^{mx}`); and the final division distributes over the finite sum.
  Every step is an identity of real numbers; the extended reals enter only through the coercion, which is why the
  inputs must be finite (distributivity and cancellation fail at ±∞).
-/
import Idealize.ShloMosaic.PureOps.Ideal
import Idealize.ShloMosaic.PureOps.Ideal.Laws

noncomputable section

open scoped BigOperators

namespace Retrieval

open Idealize.ShloMosaic

variable {ι ν : Type} [Fintype ι] [Fintype ν]

/-! ## The two formulas, on the extended reals -/

/-- The first way's scale of a row: the reciprocal square root of `max (Σ x², c)`. -/
def scaleK (c : EReal) (x : ι → EReal) : EReal := Ideal.rsqrt (max (∑ k, x k * x k) c)

/-- The first way's similarity of the scaled row with the scaled memory row `n`. -/
def simK (c : EReal) (x : ι → EReal) (M : ν → ι → EReal) (n : ν) : EReal :=
  ∑ k, (x k * scaleK c x) * (M n k * scaleK c (M n))

/-- The first way's result at feature `h`: unnormalised weights against memory, divided once by their sum. -/
def outK (c : EReal) (x : ι → EReal) (M : ν → ι → EReal) (h : ι) : EReal :=
  (∑ n, Ideal.exp (simK c x M n) * M n h) * Ideal.div 1 (∑ n, Ideal.exp (simK c x M n))

/-- The second way's divisor of a row: `max (√(Σ x²), d)`. -/
def normR (d : EReal) (x : ι → EReal) : EReal := max (Ideal.sqrt (∑ k, x k * x k)) d

/-- The second way's similarity. -/
def simR (d : EReal) (x : ι → EReal) (M : ν → ι → EReal) (n : ν) : EReal :=
  ∑ k, Ideal.div (x k) (normR d x) * Ideal.div (M n k) (normR d (M n))

/-- The second way's result at feature `h`, with the shift `mx` subtracted under the exponential. -/
def outR (d mx : EReal) (x : ι → EReal) (M : ν → ι → EReal) (h : ι) : EReal :=
  ∑ n, Ideal.div (Ideal.exp (simR d x M n - mx)) (∑ j, Ideal.exp (simR d x M j - mx)) * M n h

/-! ## Coercion of finite sums and maxima -/

/-- The coercion of a finite real sum is the sum of the coercions. -/
theorem coe_sum {α : Type} (s : Finset α) (f : α → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion is monotone, so it commutes with `max`. -/
theorem coe_max (a b : ℝ) : ((max a b : ℝ) : EReal) = max (a : EReal) (b : EReal) :=
  EReal.coe_strictMono.monotone.map_max

/-! ## The real quantities -/

/-- The sum of squares of a real row. -/
def ssq (x : ι → ℝ) : ℝ := ∑ k, x k * x k

theorem ssq_nonneg (x : ι → ℝ) : 0 ≤ ssq x := Finset.sum_nonneg fun k _ => mul_self_nonneg (x k)

theorem coe_ssq (x : ι → ℝ) : (∑ k, (x k : EReal) * (x k : EReal)) = ((ssq x : ℝ) : EReal) := by
  rw [ssq, coe_sum]; exact Finset.sum_congr rfl fun k _ => (EReal.coe_mul _ _).symm

/-- The common real factor: one over `max (‖x‖, d)`. -/
def unitScale (d : ℝ) (x : ι → ℝ) : ℝ := (max (Real.sqrt (ssq x)) d)⁻¹

/-- The square root is monotone and `√(d²) = d` for `d ≥ 0`: the threshold moves through the root. -/
theorem sqrt_max_sq {s d : ℝ} (hd : 0 ≤ d) : Real.sqrt (max s (d * d)) = max (Real.sqrt s) d := by
  rcases le_total s (d * d) with h | h
  · have h' : Real.sqrt s ≤ d := by have := Real.sqrt_le_sqrt h; rwa [Real.sqrt_mul_self hd] at this
    rw [max_eq_right h, max_eq_right h', Real.sqrt_mul_self hd]
  · have h' : d ≤ Real.sqrt s := by have := Real.sqrt_le_sqrt h; rwa [Real.sqrt_mul_self hd] at this
    rw [max_eq_left h, max_eq_left h']

/-- The first way's scale of a real row, with the threshold `d²`, is the common factor. -/
theorem scaleK_coe {d : ℝ} (hd : 0 < d) (x : ι → ℝ) :
    scaleK ((d * d : ℝ) : EReal) (fun k => (x k : EReal)) = ((unitScale d x : ℝ) : EReal) := by
  unfold scaleK
  rw [coe_ssq, ← coe_max, Ideal.rsqrt_coe]
  have hpos : 0 < max (ssq x) (d * d) := lt_max_of_lt_right (mul_pos hd hd)
  rw [if_neg (not_lt.2 hpos.le), if_neg hpos.ne', sqrt_max_sq hd.le]
  rfl

/-- The second way's divisor of a real row is the real `max (‖x‖, d)`. -/
theorem normR_coe (d : ℝ) (x : ι → ℝ) :
    normR (d : EReal) (fun k => (x k : EReal)) = ((max (Real.sqrt (ssq x)) d : ℝ) : EReal) := by
  unfold normR
  rw [coe_ssq, Ideal.sqrt_coe, if_neg (not_lt.2 (ssq_nonneg x)), ← coe_max]

/-- Dividing a real entry by the second way's divisor is multiplying by the common factor. -/
theorem div_normR_coe {d : ℝ} (hd : 0 < d) (x : ι → ℝ) (a : ℝ) :
    Ideal.div (a : EReal) (normR (d : EReal) (fun k => (x k : EReal))) = ((a * unitScale d x : ℝ) : EReal) := by
  rw [normR_coe, Ideal.div_coe (lt_max_of_lt_right hd).ne', one_div, ← EReal.coe_mul]
  rfl

/-- The real similarity both ways compute. -/
def simr (d : ℝ) (x : ι → ℝ) (M : ν → ι → ℝ) (n : ν) : ℝ :=
  ∑ k, (x k * unitScale d x) * (M n k * unitScale d (M n))

theorem simK_coe {d : ℝ} (hd : 0 < d) (x : ι → ℝ) (M : ν → ι → ℝ) (n : ν) :
    simK ((d * d : ℝ) : EReal) (fun k => (x k : EReal)) (fun n k => (M n k : EReal)) n = ((simr d x M n : ℝ) : EReal) := by
  unfold simK
  rw [scaleK_coe hd x, scaleK_coe hd (M n), simr, coe_sum]
  exact Finset.sum_congr rfl fun k _ => by rw [EReal.coe_mul, EReal.coe_mul, EReal.coe_mul]

theorem simR_coe {d : ℝ} (hd : 0 < d) (x : ι → ℝ) (M : ν → ι → ℝ) (n : ν) :
    simR (d : EReal) (fun k => (x k : EReal)) (fun n k => (M n k : EReal)) n = ((simr d x M n : ℝ) : EReal) := by
  unfold simR
  rw [simr, coe_sum]
  refine Finset.sum_congr rfl fun k _ => ?_
  rw [div_normR_coe hd x (x k), div_normR_coe hd (M n) (M n k)]
  exact (EReal.coe_mul _ _).symm

/-! ## A running maximum of finitely many reals is a real -/

/-- The fold of `max` from `⊥` over a nonempty family of reals is at least one of them and below `⊤`. -/
theorem fold_max_bounds [Nonempty ν] (f : ν → EReal) (hf : ∀ n, ∃ r : ℝ, f n = (r : EReal)) :
    (∃ n, f n ≤ (Finset.univ : Finset ν).fold max ⊥ f) ∧ (Finset.univ : Finset ν).fold max ⊥ f < ⊤ := by
  refine ⟨⟨Classical.arbitrary ν, (Finset.le_fold_max _).2 (Or.inr ⟨_, Finset.mem_univ _, le_rfl⟩)⟩, ?_⟩
  refine (Finset.fold_max_lt _).2 ⟨bot_lt_top, fun n _ => ?_⟩
  obtain ⟨r, hr⟩ := hf n
  rw [hr]; exact EReal.coe_lt_top r

/-! ## The law -/

/-- On real rows, with the first way's threshold the square of the second's (`c = d²`, `d > 0`) and any shift that is
    at least one similarity and below `⊤` (so: a real), the two ways give the same extended real. -/
theorem outK_eq_outR [Nonempty ν] {d : ℝ} (hd : 0 < d) (x : ι → ℝ) (M : ν → ι → ℝ) (mx : EReal)
    (hlo : ∃ n, simR (d : EReal) (fun k => (x k : EReal)) (fun n k => (M n k : EReal)) n ≤ mx) (hhi : mx < ⊤) (h : ι) :
    outK ((d * d : ℝ) : EReal) (fun k => (x k : EReal)) (fun n k => (M n k : EReal)) h
      = outR (d : EReal) mx (fun k => (x k : EReal)) (fun n k => (M n k : EReal)) h := by
  obtain ⟨n0, hn0⟩ := hlo
  rw [simR_coe hd] at hn0
  have hbot : mx ≠ ⊥ := fun e => by rw [e] at hn0; exact absurd hn0 (not_le.2 (EReal.bot_lt_coe _))
  lift mx to ℝ using ⟨hhi.ne, hbot⟩
  have hSpos : 0 < ∑ n, Real.exp (simr d x M n) :=
    Finset.sum_pos (fun n _ => Real.exp_pos _) Finset.univ_nonempty
  have hTpos : 0 < ∑ j, Real.exp (simr d x M j - mx) :=
    Finset.sum_pos (fun n _ => Real.exp_pos _) Finset.univ_nonempty
  -- the first way, as one real
  have hK : outK ((d * d : ℝ) : EReal) (fun k => (x k : EReal)) (fun n k => (M n k : EReal)) h
      = (((∑ n, Real.exp (simr d x M n) * M n h) * (1 / ∑ n, Real.exp (simr d x M n)) : ℝ) : EReal) := by
    unfold outK
    have h1 : (∑ n, Ideal.exp (simK ((d * d : ℝ) : EReal) (fun k => (x k : EReal)) (fun n k => (M n k : EReal)) n) * (M n h : EReal))
        = ((∑ n, Real.exp (simr d x M n) * M n h : ℝ) : EReal) := by
      rw [coe_sum]
      exact Finset.sum_congr rfl fun n _ => by rw [simK_coe hd, Ideal.exp_coe, EReal.coe_mul]
    have h2 : (∑ n, Ideal.exp (simK ((d * d : ℝ) : EReal) (fun k => (x k : EReal)) (fun n k => (M n k : EReal)) n))
        = ((∑ n, Real.exp (simr d x M n) : ℝ) : EReal) := by
      rw [coe_sum]
      exact Finset.sum_congr rfl fun n _ => by rw [simK_coe hd, Ideal.exp_coe]
    rw [h1, h2, Ideal.div_coe hSpos.ne', one_mul, ← EReal.coe_mul]
  -- the second way, as one real
  have hR : outR (d : EReal) (mx : EReal) (fun k => (x k : EReal)) (fun n k => (M n k : EReal)) h
      = ((∑ n, Real.exp (simr d x M n - mx) * (1 / ∑ j, Real.exp (simr d x M j - mx)) * M n h : ℝ) : EReal) := by
    unfold outR
    have h2 : (∑ j, Ideal.exp (simR (d : EReal) (fun k => (x k : EReal)) (fun n k => (M n k : EReal)) j - (mx : EReal)))
        = ((∑ j, Real.exp (simr d x M j - mx) : ℝ) : EReal) := by
      rw [coe_sum]
      exact Finset.sum_congr rfl fun j _ => by rw [simR_coe hd, ← EReal.coe_sub, Ideal.exp_coe]
    rw [coe_sum]
    refine Finset.sum_congr rfl fun n _ => ?_
    rw [h2, simR_coe hd, ← EReal.coe_sub, Ideal.exp_coe, Ideal.div_coe hTpos.ne', ← EReal.coe_mul, ← EReal.coe_mul]
  rw [hK, hR]
  congr 1
  -- the identity of real numbers
  have hT : (∑ j, Real.exp (simr d x M j - mx)) = (∑ j, Real.exp (simr d x M j)) / Real.exp mx := by
    rw [Finset.sum_div]; exact Finset.sum_congr rfl fun j _ => Real.exp_sub _ _
  rw [Finset.sum_mul]
  refine Finset.sum_congr rfl fun n _ => ?_
  rw [hT, Real.exp_sub]
  have he := (Real.exp_pos mx).ne'
  have hS := hSpos.ne'
  field_simp

end Retrieval

end
-- ==== Proof.Consts.lean ====
/-
  The float words the two programs spell, as the extended reals they denote at the ideal values, stated once.

  * `0x2B8CBCCC` is the f32 nearest to 10⁻¹²: exactly `2305843 / 2⁶¹`. It is the threshold `d` under which a row's
    norm is clamped on the division side.
  * The reciprocal-square-root side clamps the SQUARED norm at the exact square of that number,
    `5316911940649 / 2¹²² = (2305843 / 2⁶¹)²` (`eps_sq`).
  * `0xFF800000` is −∞ (the running maximum starts there), `0x7F800000` is +∞ (the finiteness test compares against
    it), `0x3F800000` is 1.
-/
import Idealize.ShloMosaic.PureOps.Ideal

noncomputable section

namespace Retrieval.Consts

open Idealize.ShloMosaic

/-- The clamp on a norm: the real `2305843 / 2⁶¹`. -/
def eps : ℝ := 2305843 / 2305843009213693952

theorem eps_pos : 0 < eps := by unfold eps; norm_num

/-- The word `0x2B8CBCCC` denotes `eps`. -/
theorem ofBits_eps : Ideal.ofBits .f32 0x2B8CBCCC#32 = ((eps : ℝ) : EReal) := by
  unfold eps
  simp [Ideal.ofBits, Ideal.ieee, -EReal.coe_mul]; norm_num

/-- The clamp on a squared norm is the square of the clamp on the norm. -/
theorem eps_sq : (5316911940649 / 5316911983139663491615228241121378304 : ℝ) = eps * eps := by
  unfold eps; norm_num

/-- The word `0xFF800000` denotes −∞. -/
theorem ofBits_neg_inf : Ideal.ofBits .f32 0xFF800000#32 = ⊥ := by
  simp [Ideal.ofBits, Ideal.ieee]

/-- The word `0x7F800000` denotes +∞. -/
theorem ofBits_inf : Ideal.ofBits .f32 0x7F800000#32 = ⊤ := by
  simp [Ideal.ofBits, Ideal.ieee]

/-- The word `0x3F800000` denotes 1. -/
theorem ofBits_one : Ideal.ofBits .f32 0x3F800000#32 = 1 := by
  simp [Ideal.ofBits, Ideal.ieee, -EReal.coe_mul]; norm_num

end Retrieval.Consts

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.KernelPay.lean ====
/-
  The kernel body's arithmetic, read at an index of the output block, is the reciprocal-square-root form `outK` of the
  retrieval (Law.lean) on the query block's row and the whole memory block.

  The body, on a query block `x0` (1024 rows) and the memory `x1` (1024 rows), 256 features each:
    * scales every query row by the reciprocal square root of its clamped squared norm (`qUnit`), every memory row
      likewise (`mUnit`; there the reciprocal root is taken on the [1024] vector of row sums before it becomes a column);
    * contracts the two over the features, row against row, into the [1024, 1024] similarities (`simV`);
    * exponentiates, sums each row, takes one over the sum as a column;
    * contracts the exponentials with the memory over the 1024 memory rows and multiplies by that column.
  Changes of float format are the identity at the ideal values, so the narrowings before each contraction disappear.
-/
import proofs.«125039_g11441792876600_week1_w4_507_4_alg».proof.Proof.Gen.KernelIdeal.Skeleton
import proofs.«125039_g11441792876600_week1_w4_507_4_alg».proof.Proof.Law
import proofs.«125039_g11441792876600_week1_w4_507_4_alg».proof.Proof.Consts
import proofs.«125039_g11441792876600_week1_w4_507_4_alg».proof.Proof.LibKeepdims
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.Body

open Cert.KernelIdeal Cert.KernelIdeal.Gen Idealize.ShloMosaic Idealize.ShloMosaic.ValueIdx Idealize.ShloMosaic.Keepdims
open Retrieval

/-! ## The two constants of the body -/

/-- The clamp on a squared norm: the named constant, which denotes the exact square of the reference's clamp. -/
def cW : Ideal .f32 := Named.named (F := Ideal) κ "norm_eps_sq" (φ := .f32) 0x179ABE15#32

theorem cW_eq : cW = (((Retrieval.Consts.eps * Retrieval.Consts.eps : ℝ)) : EReal) := by
  rw [← Retrieval.Consts.eps_sq]
  exact IdealRules.named_const.ideal_named_scalar _ _ _ _ rfl

/-- The numerator of the final reciprocal. -/
def oneW : Ideal .f32 := Scalar.ofBits (F := Ideal) .f32 0x3F800000#32

theorem oneW_eq : oneW = (1 : EReal) := Retrieval.Consts.ofBits_one

/-! ## The stages -/

/-- A query block with every row scaled by the reciprocal root of its clamped squared norm. -/
def qUnit (c : Ideal .f32) (x : FVec Ideal S1024x256 .f32) : FVec Ideal S1024x256 .f32 :=
  mulf x (broadcastTo S1024x256 (rsqrt (maximumf (shapeCast S1024x1 (multiReduction .add [1] S1024 (mulf x x) 0x00000000#32
    reduces_S1024x256_S1024 (.inl rfl) rfl) shapeCasts_S1024_S1024x1) (broadcast S1024x1 c))) broadcasts_S1024x1_S1024x256)

/-- The memory block with every row scaled the same way (the root taken before the row sums become a column). -/
def mUnit (c : Ideal .f32) (x : FVec Ideal S1024x256 .f32) : FVec Ideal S1024x256 .f32 :=
  mulf x (broadcastTo S1024x256 (shapeCast S1024x1 (rsqrt (maximumf (multiReduction .add [1] S1024 (mulf x x) 0x00000000#32
    reduces_S1024x256_S1024 (.inl rfl) rfl) (broadcast S1024 c))) shapeCasts_S1024_S1024x1) broadcasts_S1024x1_S1024x256)

/-- The similarities: scaled query rows against scaled memory rows, contracted over the features. -/
def simV (c : Ideal .f32) (x0 x1 : FVec Ideal S1024x256 .f32) : FVec Ideal S1024x1024 .f32 :=
  matmul dot_S1024x256_S1024x256_S1024x1024_1_1_0_0_n_n none (truncf .bf16 (qUnit c x0) bitsLt_bf16_f32) (truncf .bf16 (mUnit c x1) bitsLt_bf16_f32)
    (constant S1024x1024 .f32 0x00000000#32)

/-- The body's stored value is these stages composed (the definitions unfold to the same text). -/
theorem pay_eq (x0 x1 : Vec Ideal S1024x256 .f32) :
    k0_pay1 (F := Ideal) x0 x1
      = mulf (matmul dot_S1024x1024_S1024x256_S1024x256_1_0_0_1_n_n none (truncf .bf16 (exp (simV cW x0 x1)) bitsLt_bf16_f32) (truncf .bf16 x1 bitsLt_bf16_f32)
            (constant S1024x256 .f32 0x00000000#32))
          (broadcastTo S1024x256 (divf (broadcast S1024x1 oneW) (shapeCast S1024x1 (multiReduction .add [1] S1024 (exp (simV cW x0 x1))
            0x00000000#32 reduces_S1024x1024_S1024 (.inl rfl) rfl) shapeCasts_S1024_S1024x1)) broadcasts_S1024x1_S1024x256) := rfl

/-! ## Each stage at an index -/

theorem qUnit_apply (c : Ideal .f32) (x : FVec Ideal S1024x256 .f32) (r : Fin 1024) (k : Fin 256) :
    qUnit c x (ix2 r k) = x (ix2 r k) * scaleK c (fun k => x (ix2 r k)) := by
  unfold qUnit
  rw [mulf_apply, bcast_col_apply]
  show x (ix2 r k) * Ideal.rsqrt (max (shapeCast S1024x1 _ shapeCasts_S1024_S1024x1 (ix2 r 0)) c) = _
  rw [cast_col_apply]
  exact congrArg (fun s => x (ix2 r k) * Ideal.rsqrt (max s c)) (rowSum2_apply (mulf x x) _ _ _ _ r)

theorem mUnit_apply (c : Ideal .f32) (x : FVec Ideal S1024x256 .f32) (n : Fin 1024) (k : Fin 256) :
    mUnit c x (ix2 n k) = x (ix2 n k) * scaleK c (fun k => x (ix2 n k)) := by
  unfold mUnit
  rw [mulf_apply, bcast_col_apply, cast_col_apply]
  show x (ix2 n k) * Ideal.rsqrt (max (multiReduction .add [1] S1024 (mulf x x) 0x00000000#32 reduces_S1024x256_S1024 (.inl rfl) rfl (ix1 n)) c) = _
  exact congrArg (fun s => x (ix2 n k) * Ideal.rsqrt (max s c)) (rowSum2_apply (mulf x x) _ _ _ _ n)

/-- The operand indices of the row-against-row contraction: output (r, n) and feature k read (r, k) and (n, k). -/
theorem d1_lhs0 (i : S1024x1024.Idx) (q : dot_S1024x256_S1024x256_S1024x1024_1_1_0_0_n_n.contr.Idx) : (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem d1_lhs1 (i : S1024x1024.Idx) (q : dot_S1024x256_S1024x256_S1024x1024_1_1_0_0_n_n.contr.Idx) : (dot_S1024x256_S1024x256_S1024x1024_1_1_0_0_n_n.lhsIdx i q 1).val = (q ⟨0, by decide⟩).val :=
  dot_S1024x256_S1024x256_S1024x1024_1_1_0_0_n_n.lhsIdx_val_of_single rfl i q
theorem d1_rhs0 (i : S1024x1024.Idx) (q : dot_S1024x256_S1024x256_S1024x1024_1_1_0_0_n_n.contr.Idx) : (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem d1_rhs1 (i : S1024x1024.Idx) (q : dot_S1024x256_S1024x256_S1024x1024_1_1_0_0_n_n.contr.Idx) : (dot_S1024x256_S1024x256_S1024x1024_1_1_0_0_n_n.rhsIdx i q 1).val = (q ⟨0, by decide⟩).val :=
  dot_S1024x256_S1024x256_S1024x1024_1_1_0_0_n_n.rhsIdx_val_of_single rfl i q

/-- The row-against-row contraction over the 256 features, at (r, n). -/
theorem mm1_apply (A B : FVec Ideal S1024x256 .bf16) (r n : Fin 1024) :
    matmul dot_S1024x256_S1024x256_S1024x1024_1_1_0_0_n_n none A B (constant S1024x1024 .f32 0x00000000#32) (ix2 r n)
      = ∑ k : Fin 256, A (ix2 r k) * B (ix2 n k) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 r n) ((ValueIdx.contrEquiv1 dot_S1024x256_S1024x256_S1024x1024_1_1_0_0_n_n 256 rfl rfl).symm k) = ix2 r k := funext fun a => Fin.ext (by
    match a with
    | ⟨0, _⟩ => exact d1_lhs0 _ _
    | ⟨1, _⟩ => exact (d1_lhs1 _ _).trans hk)
  have er : dot_S1024x256_S1024x256_S1024x1024_1_1_0_0_n_n.rhsIdx (ix2 r n) ((ValueIdx.contrEquiv1 dot_S1024x256_S1024x256_S1024x1024_1_1_0_0_n_n 256 rfl rfl).symm k) = ix2 n k := funext fun a => Fin.ext (by
    match a with
    | ⟨0, _⟩ => exact d1_rhs0 _ _
    | ⟨1, _⟩ => exact (d1_rhs1 _ _).trans hk)
  rw [el, er]

/-- The operand indices of the rows-times-columns contraction: output (r, h) and memory row n read (r, n) and (n, h). -/
theorem d2_lhs0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem d2_lhs1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem d2_rhs0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem d2_rhs1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The rows-times-columns contraction over the 1024 memory rows, at (r, h). -/
theorem mm2_apply (E : FVec Ideal S1024x1024 .bf16) (B : FVec Ideal S1024x256 .bf16) (r : Fin 1024) (h : Fin 256) :
    matmul dot_S1024x1024_S1024x256_S1024x256_1_0_0_1_n_n none E B (constant S1024x256 .f32 0x00000000#32) (ix2 r h)
      = ∑ n : Fin 1024, E (ix2 r n) * B (ix2 n h) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 r h) ((ValueIdx.contrEquiv1 dot_S1024x1024_S1024x256_S1024x256_1_0_0_1_n_n 1024 rfl rfl).symm k) = ix2 r k := funext fun a => Fin.ext (by
    match a with
    | ⟨0, _⟩ => exact d2_lhs0 _ _
    | ⟨1, _⟩ => exact (d2_lhs1 _ _).trans hk)
  have er : dot_S1024x1024_S1024x256_S1024x256_1_0_0_1_n_n.rhsIdx (ix2 r h) ((ValueIdx.contrEquiv1 dot_S1024x1024_S1024x256_S1024x256_1_0_0_1_n_n 1024 rfl rfl).symm k) = ix2 k h := funext fun a => Fin.ext (by
    match a with
    | ⟨0, _⟩ => exact (d2_rhs0 _ _).trans hk
    | ⟨1, _⟩ => exact d2_rhs1 _ _)
  rw [el, er]

theorem simV_apply (c : Ideal .f32) (x0 x1 : FVec Ideal S1024x256 .f32) (r n : Fin 1024) :
    simV c x0 x1 (ix2 r n) = simK c (fun k => x0 (ix2 r k)) (fun n k => x1 (ix2 n k)) n := by
  unfold simV
  rw [mm1_apply]
  unfold simK
  refine Finset.sum_congr rfl fun k _ => ?_
  rw [truncf_apply, truncf_apply, qUnit_apply, mUnit_apply]

/-- One over a row's sum, as a column spread over the 256 features, at (r, h). -/
theorem invsum_apply (one : Ideal .f32) (E : FVec Ideal S1024x1024 .f32) (r : Fin 1024) (h : Fin 256) :
    broadcastTo S1024x256 (divf (broadcast S1024x1 one) (shapeCast S1024x1 (multiReduction .add [1] S1024 E 0x00000000#32
      reduces_S1024x1024_S1024 (.inl rfl) rfl) shapeCasts_S1024_S1024x1)) broadcasts_S1024x1_S1024x256 (ix2 r h)
      = Ideal.div one (∑ n : Fin 1024, E (ix2 r n)) := by
  rw [bcast_col_apply, divf_apply, cast_col_apply]
  exact congrArg (Ideal.div one) (rowSum2_apply E _ _ _ _ r)

/-! ## The body at an index -/

/-- Entry (r, h) of what the body stores is the reciprocal-square-root form on row `r` of the query block and the memory. -/
theorem pay_apply (x0 x1 : Vec Ideal S1024x256 .f32) (r : Fin 1024) (h : Fin 256) :
    k0_pay1 (F := Ideal) x0 x1 (ix2 r h) = outK cW (fun k => x0 (ix2 r k)) (fun n k => x1 (ix2 n k)) h := by
  have e : ∀ n : Fin 1024, (exp (simV cW x0 x1)) (ix2 r n)
      = Ideal.exp (simK cW (fun k => x0 (ix2 r k)) (fun n k => x1 (ix2 n k)) n) :=
    fun n => congrArg Ideal.exp (simV_apply cW x0 x1 r n)
  rw [pay_eq, mulf_apply, mm2_apply, invsum_apply, oneW_eq]
  unfold outK
  refine congrArg₂ (· * ·) (Finset.sum_congr rfl fun n _ => ?_) (congrArg (Ideal.div 1) (Finset.sum_congr rfl fun n _ => e n))
  rw [truncf_apply, truncf_apply]
  exact congrArg (· * x1 (ix2 n h)) (e n)

end Cert.KernelIdeal.Body

end
-- ==== Proof.Spec.lean ====
/-
  The two formulas of the softmax retrieval (Law.lean) laid over the arrays' indices.

  The query array has 16384 rows of 256 features, the memory 1024 rows of 256 features. Entry (b, h) of the result
  depends on query row `b` and on all of memory: `GK` is the reciprocal-square-root form, `GR` the division form with
  a per-row shift `mx b` under the exponential. On real arrays, with the thresholds related by `c = d²`, `d > 0`, and
  each shift a real that is at least one similarity of its row, `GK = GR` (`GK_eq_GR`), row by row from the law.
-/
import Idealize.ShloMosaic.Lib.ValueIdx
import proofs.«125039_g11441792876600_week1_w4_507_4_alg».proof.Proof.Law

noncomputable section

namespace Retrieval

open Idealize.ShloMosaic Idealize.ShloMosaic.ValueIdx

/-- The query array's shape and the memory's. -/
abbrev SQ : Shape := ⟨2, ![16384, 256]⟩
abbrev SMem : Shape := ⟨2, ![1024, 256]⟩

/-- Row `b` of the query array. -/
def qrow (z : SQ.Idx → EReal) (b : Fin 16384) : Fin 256 → EReal := fun k => z (ix2 b k)

/-- The memory array as its rows. -/
def mrows (mem : SMem.Idx → EReal) : Fin 1024 → Fin 256 → EReal := fun n k => mem (ix2 n k)

/-- The result array, reciprocal-square-root form with squared-norm threshold `c`. -/
def GK (c : EReal) (z : SQ.Idx → EReal) (mem : SMem.Idx → EReal) : SQ.Idx → EReal :=
  fun i => outK c (qrow z (i 0)) (mrows mem) (i 1)

/-- The result array, division form with norm threshold `d` and the shift `mx b` on row `b`. -/
def GR (d : EReal) (mx : Fin 16384 → EReal) (z : SQ.Idx → EReal) (mem : SMem.Idx → EReal) : SQ.Idx → EReal :=
  fun i => outR d (mx (i 0)) (qrow z (i 0)) (mrows mem) (i 1)

/-- On arrays of reals the two forms are one array: each row is an instance of the law. The shift of a row need only be
    at least one of the row's similarities and below `⊤`. -/
theorem GK_eq_GR {d : ℝ} (hd : 0 < d) (z : SQ.Idx → EReal) (mem : SMem.Idx → EReal) (mx : Fin 16384 → EReal)
    (hz : ∀ i, ∃ r : ℝ, z i = (r : EReal)) (hm : ∀ i, ∃ r : ℝ, mem i = (r : EReal))
    (hlo : ∀ b, ∃ n, simR (d : EReal) (qrow z b) (mrows mem) n ≤ mx b) (hhi : ∀ b, mx b < ⊤) :
    GK ((d * d : ℝ) : EReal) z mem = GR (d : EReal) mx z mem := by
  choose zr hzr using hz
  choose mr hmr using hm
  have ez : ∀ b, qrow z b = fun k => ((zr (ix2 b k) : ℝ) : EReal) := fun b => funext fun k => hzr _
  have em : mrows mem = fun n k => ((mr (ix2 n k) : ℝ) : EReal) := funext fun n => funext fun k => hmr _
  funext i
  have hl := hlo (i 0)
  unfold GK GR
  rw [ez (i 0), em] at hl ⊢
  exact outK_eq_outR hd (fun k => zr (ix2 (i 0) k)) (fun n k => mr (ix2 n k)) (mx (i 0)) hl (hhi (i 0)) (i 1)

end Retrieval

end
-- ==== Proof.KernelArray.lean ====
/-
  From blocks to the array: after the run, the kernel's result array is the reciprocal-square-root form `GK` of the
  retrieval (Spec.lean) of the two argument arrays.

  The grid has 16 points. At point `t` the query window is rows 1024·t … 1024·t + 1023 of the query array (all 256
  features), the memory window is the whole memory at every point, and the output window is the same rows of the
  result. So entry (r, h) of what point `t` writes back — the body's value (KernelPay.lean) on those blocks — is entry
  (1024·t + r, h) of `GK`: the query block's row r is the array's row 1024·t + r, the memory block is the memory. The 16
  output blocks tile the result array (row b lies in block b / 1024), so the array ends holding `GK` everywhere.
-/
import proofs.«125039_g11441792876600_week1_w4_507_4_alg».proof.Proof.Gen.KernelIdeal.Value
import proofs.«125039_g11441792876600_week1_w4_507_4_alg».proof.Proof.KernelPay
import proofs.«125039_g11441792876600_week1_w4_507_4_alg».proof.Proof.Spec

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Retrieval

variable (m : (ℓ : Loc nD τ sig) → Buf (Elt Ideal) ℓ) (ρ : Dev nD → PrngReg)

theorem hz : (![0, 0] : Fin 2 → Nat) = fun _ => 0 := funext fun a => by fin_cases a <;> rfl

/-- The body's value at any index of the block, by its two coordinates. -/
theorem pay_at (x0 x1 : Vec Ideal S1024x256 .f32) (y : S1024x256.Idx) :
    k0_pay1 (F := Ideal) x0 x1 y = outK Body.cW (fun k => x0 (ix2 (y 0) k)) (fun n k => x1 (ix2 n k)) (y 1) := by
  obtain ⟨r, h, rfl⟩ : ∃ (r : Fin 1024) (h : Fin 256), y = ix2 r h := ⟨y 0, y 1, eq_ix2 y⟩
  exact Body.pay_apply x0 x1 r h

/-- The index maps over the 16 points: the query window's row block is the output's, its feature block is 0; the memory
    window's block is (0, 0); the output's feature block is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block of the result is some point's. -/
theorem idx_onto : ∀ q : Fin 16, ∃ t : Fin cfg0.N, win0_2.index t (0 : Fin 2) = q.val ∧ win0_2.index t (1 : Fin 2) = 0 :=
  (by decide +kernel : ∀ q : Fin 16, ∃ t : Fin grid0.N, win0_2.index t (0 : Fin 2) = q.val ∧ win0_2.index t (1 : Fin 2) = 0)

/-- What point `t` writes back is block `t` of `GK` of the argument arrays. -/
theorem flushed_eq (c : Dev nD) (t : Fin cfg0.N) :
    (dats m 0 c).flushed 2 t
      = ((cfg0.win 2).blk t).view.read (Elt Ideal) (GK Body.cW (V m c main_arg0) (V m c main_arg1)) := by
  rw [Value.flushed2]
  unfold out0_2
  rw [View.canon_unit_zero hz]
  simp only [View.ld_unit_zero (S := S1024x256) hz]
  obtain ⟨e0, e1, e2, e3, e4⟩ := idx_facts t
  funext j
  show k0_pay1 (F := Ideal) (iblk m c 0 t) (iblk m c 1 t) j
    = GK Body.cW (V m c main_arg0) (V m c main_arg1) (((cfg0.win 2).blk t).view.emb j)
  refine (pay_at (iblk m c 0 t) (iblk m c 1 t) j).trans ?_
  have h1 : (fun k : Fin 256 => iblk m c 0 t (ix2 (j 0) k))
      = qrow (V m c main_arg0) ((((cfg0.win 2).blk t).view.emb j) 0) := by
    funext k
    show (V m c main_arg0 : S16384x256.Idx → Elt Ideal .f32) (((cfg0.win 0).blk t).view.emb (ix2 (j 0) k))
      = (V m c main_arg0 : S16384x256.Idx → Elt Ideal .f32) (ix2 ((((cfg0.win 2).blk t).view.emb j) 0) k)
    refine congrArg (V m c main_arg0 : S16384x256.Idx → Elt Ideal .f32) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 256 + 1 * k.val = k.val; omega
  have h2 : (fun (n : Fin 1024) (k : Fin 256) => iblk m c 1 t (ix2 n k)) = mrows (V m c main_arg1) := by
    funext n k
    show (V m c main_arg1 : S1024x256.Idx → Elt Ideal .f32) (((cfg0.win 1).blk t).view.emb (ix2 n k))
      = (V m c main_arg1 : S1024x256.Idx → Elt Ideal .f32) (ix2 n k)
    refine congrArg (V m c main_arg1 : S1024x256.Idx → Elt Ideal .f32) (funext fun a => Fin.ext ?_)
    match a with
    | ⟨0, _⟩ => show win0_1.index t (0 : Fin 2) * 1024 + 1 * n.val = n.val; omega
    | ⟨1, _⟩ => show win0_1.index t (1 : Fin 2) * 256 + 1 * k.val = k.val; omega
  have h3 : (j 1 : Fin 256) = (((cfg0.win 2).blk t).view.emb j) 1 :=
    Fin.ext (by show (j 1).val = win0_2.index t (1 : Fin 2) * 256 + 1 * (j 1).val; omega)
  exact congr (congrArg₂ (outK Body.cW) h1 h2) h3

/-- An index of the result is in point `t`'s block iff each coordinate is in the block's range on its axis. -/
theorem mem_blk (t : Fin cfg0.N) (i : S16384x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- The 16 row blocks tile the result: row b is in block b / 1024. -/
theorem cover (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  obtain ⟨t, q0, q1⟩ := idx_onto ⟨(i 0).val / 1024, by omega⟩
  have q0' : win0_2.index t (0 : Fin 2) = (i 0).val / 1024 := q0
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

/-- The result array after the run. -/
theorem final (c : Dev nD) :
    (dats m 0 c).arrAt 2 cfg0.N
      = GK Body.cW (m ((c : Thread nD τ).loc main_arg0)) (m ((c : Thread nD τ).loc main_arg1)) :=
  (dats m 0 c).arrAt_eq_of_cover 2 _ (fun t _ => flushed_eq m c t) cover

/-- The kernel's run: the result array at `GK` of the argument arrays, the arguments unchanged. -/
theorem run : θ_run defs (onTc (τ := τ) (main (F := Ideal))) ⟨m, fun _ => 0, ρ⟩ fun r => ∀ c : Dev nD,
      r.2.mem ((c : Thread nD τ).loc main_v0)
        = GK Body.cW (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefRead.lean ====
/-
  What the reference computes, read one stage at a time at an index, is the division form `GR` of the retrieval
  (Spec.lean) with threshold the word `0x2B8CBCCC` and, on row `b`, the shift the program itself takes: the running
  maximum of that row's similarities started from −∞.

  Stages: the clamped norm of a row (sum of squares, square root, maximum with the threshold); the normalised entry
  (a division by it); the similarity of query row `b` with memory row `n` (a contraction over the 256 features, the memory
  side read through a transpose); the row maximum (a fold of `max` from −∞ over the 1024 memory rows); the shifted
  exponential, its row sum, the weight (a division by that sum); the result (a contraction of the weights with memory over
  the 1024 rows).
-/
import proofs.«125039_g11441792876600_week1_w4_507_4_alg».proof.Proof.Gen.ReferenceIdeal.Read
import proofs.«125039_g11441792876600_week1_w4_507_4_alg».proof.Proof.Spec
import proofs.«125039_g11441792876600_week1_w4_507_4_alg».proof.Proof.Consts

noncomputable section

namespace Cert.ReferenceIdeal.RefValue

open Cert.ReferenceIdeal Cert.ReferenceIdeal.Gen Cert.ReferenceIdeal.Read Idealize.ShloMosaic Idealize.ShloMosaic.ValueIdx
open Retrieval

/-- The reference's threshold on a norm, as the program spells it. -/
abbrev dW : EReal := Ideal.ofBits .f32 0x2B8CBCCC#32

variable (x0 : (⟨S16384x256, .f32⟩ : BufTy).Contents (Elt Ideal)) (x1 : (⟨S1024x256, .f32⟩ : BufTy).Contents (Elt Ideal))

/-! ## The clamped norms -/

/-- The clamped norm of the query row through `j`. -/
theorem norm_q (j : S16384x1.Idx) : val_main_v2 (F := Ideal) x0 j = normR dW (qrow x0 (j 0)) := by
  have e : ∀ k : Fin 256, idx_main_call0_v1 (idx_main_call0_v2 j) k = ix2 (j 0) k := fun k =>
    funext fun a => Fin.ext (by match a with | ⟨0, _⟩ => rfl | ⟨1, _⟩ => rfl)
  rw [val_main_v2_apply, val_main_v0_apply, val_main_call0_v2_apply, val_main_call0_v1_apply, val_main_v1_apply]
  simp only [val_main_call0_v0_apply, val_main_cst_apply, val_main_call0_cst_apply, e, Ideal.mulf_def, Ideal.maximumf_def,
    Ideal.hostUnary_sqrt_def, Ideal.ofBits_def, Ideal.ofBits_zero_f32, zero_add]
  rfl

/-- The clamped norm of the memory row through `j`. -/
theorem norm_m (j : S1024x1.Idx) : val_main_v7 (F := Ideal) x1 j = normR dW (mrows x1 (j 0)) := by
  have e : ∀ k : Fin 256, idx_main_call1_v1 (idx_main_call1_v2 j) k = ix2 (j 0) k := fun k =>
    funext fun a => Fin.ext (by match a with | ⟨0, _⟩ => rfl | ⟨1, _⟩ => rfl)
  rw [val_main_v7_apply, val_main_v5_apply, val_main_call1_v2_apply, val_main_call1_v1_apply, val_main_v6_apply]
  simp only [val_main_call1_v0_apply, val_main_cst_0_apply, val_main_call1_cst_apply, e, Ideal.mulf_def, Ideal.maximumf_def,
    Ideal.hostUnary_sqrt_def, Ideal.ofBits_def, Ideal.ofBits_zero_f32, zero_add]
  rfl

/-! ## The normalised entries -/

theorem unit_q (i : S16384x256.Idx) : val_main_v4 (F := Ideal) x0 i = Ideal.div (x0 i) (normR dW (qrow x0 (i 0))) := by
  rw [val_main_v4_apply, val_main_v3_apply, norm_q, Ideal.hostDivf_def]
  rfl

theorem unit_m (i : S1024x256.Idx) : val_main_v9 (F := Ideal) x1 i = Ideal.div (x1 i) (normR dW (mrows x1 (i 0))) := by
  rw [val_main_v9_apply, val_main_v8_apply, norm_m, Ideal.hostDivf_def]
  rfl

/-! ## The similarities -/

/-- Entry (b, n) of the similarity matrix is the division form's similarity of query row `b` with memory row `n`. -/
theorem sim_eq (i : S16384x1024.Idx) :
    val_main_v11 (F := Ideal) x0 x1 i = simR dW (qrow x0 (i 0)) (mrows x1) (i 1) := by
  have el : ∀ k : Fin 256, lidx_main_v11 i k = ix2 (i 0) k := fun k =>
    funext fun a => Fin.ext (by match a with | ⟨0, _⟩ => rfl | ⟨1, _⟩ => rfl)
  have er : ∀ k : Fin 256, idx_main_v10 (ridx_main_v11 i k) = ix2 (i 1) k := fun k =>
    funext fun a => Fin.ext (by match a with | ⟨0, _⟩ => rfl | ⟨1, _⟩ => rfl)
  rw [val_main_v11_apply]
  unfold simR
  refine Finset.sum_congr rfl fun k _ => ?_
  rw [unit_q, val_main_v10_apply, unit_m, el, er]
  rfl

/-! ## The row maximum -/

/-- The shift the reference takes on row `b`. -/
def rowMax (b : Fin 16384) : EReal := val_main_v14 (F := Ideal) x0 x1 (ix1 b)

/-- It is the fold of `max` from −∞ over the row's similarities. -/
theorem rowMax_eq (b : Fin 16384) :
    rowMax x0 x1 b = (Finset.univ : Finset (Fin 1024)).fold max ⊥ (fun n => simR dW (qrow x0 b) (mrows x1) n) := by
  unfold rowMax
  rw [val_main_v14_apply, val_main_v13_apply, val_main_cst_2_apply]
  unfold val_main_v12
  rw [Host.reduce_eq_fold_single FloatOps.maximumf _ _ reducesTo_S16384x1024_S16384_d1
    (by decide : S16384x1024.Reduces [1] S16384) h_S_ (ix1 b), val_main_cst_1_apply]
  simp only [Ideal.maximumf_def, Ideal.ofBits_def, Retrieval.Consts.ofBits_neg_inf]
  rw [max_eq_right bot_le]
  refine Finset.fold_congr fun n _ => ?_
  exact (sim_eq x0 x1 _).trans rfl

/-! ## The shifted exponentials, their row sums, the weights -/

theorem expshift_eq (i : S16384x1024.Idx) :
    val_main_v18 (F := Ideal) x0 x1 i = Ideal.exp (simR dW (qrow x0 (i 0)) (mrows x1) (i 1) - rowMax x0 x1 (i 0)) := by
  have e : idx_main_v15 (idx_main_v16 i) = ix1 (i 0) := funext fun a => Fin.ext (by match a with | ⟨0, _⟩ => rfl)
  rw [val_main_v18_apply, val_main_v17_apply, val_main_v16_apply, val_main_v15_apply, sim_eq, e,
    Ideal.hostUnary_exp_def, Ideal.subf_def]
  rfl

theorem rowsum_eq (j : S16384.Idx) :
    val_main_v19 (F := Ideal) x0 x1 j = ∑ n : Fin 1024, Ideal.exp (simR dW (qrow x0 (j 0)) (mrows x1) n - rowMax x0 x1 (j 0)) := by
  rw [val_main_v19_apply, val_main_cst_3_apply]
  simp only [Ideal.ofBits_def, Ideal.ofBits_zero_f32, zero_add]
  refine Finset.sum_congr rfl fun n _ => ?_
  exact (expshift_eq x0 x1 _).trans rfl

theorem weight_eq (i : S16384x1024.Idx) :
    val_main_v22 (F := Ideal) x0 x1 i
      = Ideal.div (Ideal.exp (simR dW (qrow x0 (i 0)) (mrows x1) (i 1) - rowMax x0 x1 (i 0)))
          (∑ n : Fin 1024, Ideal.exp (simR dW (qrow x0 (i 0)) (mrows x1) n - rowMax x0 x1 (i 0))) := by
  rw [val_main_v22_apply, val_main_v21_apply, val_main_v20_apply, expshift_eq, rowsum_eq, Ideal.hostDivf_def]
  rfl

/-! ## The result -/

/-- The reference's result array is the division form with the program's own threshold and row maxima. -/
theorem result_eq : val_main_v23 (F := Ideal) x0 x1 = GR dW (rowMax x0 x1) x0 x1 := by
  funext i
  have el : ∀ k : Fin 1024, lidx_main_v23 i k = ix2 (i 0) k := fun k =>
    funext fun a => Fin.ext (by match a with | ⟨0, _⟩ => rfl | ⟨1, _⟩ => rfl)
  have er : ∀ k : Fin 1024, ridx_main_v23 i k = ix2 k (i 1) := fun k =>
    funext fun a => Fin.ext (by match a with | ⟨0, _⟩ => rfl | ⟨1, _⟩ => rfl)
  rw [val_main_v23_apply]
  unfold GR outR
  refine Finset.sum_congr rfl fun k _ => ?_
  rw [weight_eq, el, er]
  rfl

end Cert.ReferenceIdeal.RefValue

end
-- ==== Proof.Finite.lean ====
/-
  The precondition read back: both argument arrays hold real numbers.

  The predicate is `all (|x0| < +∞) ∧ all (|x1| < +∞)`, each `all` a reduction by `and` over every index from the
  constant 1. If the whole is 1 then each conjunct is 1, then each comparison is 1, so `max (x, −x) < ⊤` at every index;
  an extended real with that property is neither ⊤ nor ⊥.
-/
import proofs.«125039_g11441792876600_week1_w4_507_4_alg».proof.Pre_finite_inputs
import proofs.«125039_g11441792876600_week1_w4_507_4_alg».proof.Proof.Consts
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- An extended real whose absolute value is below +∞ is a real. -/
theorem real_of_abs_lt_top (x : EReal) (h : max x (-x) < ⊤) : ∃ r : ℝ, x = (r : EReal) := by
  induction x using EReal.rec with
  | bot => rw [EReal.neg_bot, max_eq_right bot_le] at h; exact absurd h (lt_irrefl _)
  | coe r => exact ⟨r, rfl⟩
  | top => rw [max_eq_left le_top] at h; exact absurd h (lt_irrefl _)

/-- A strict comparison that answered 1 holds. -/
theorem lt_of_cmp_olt {a b : EReal} (h : Ideal.cmp .olt a b = 1#1) : a < b := by
  by_contra hn
  simp [Ideal.cmp, hn] at h

variable [Facts]

/-- Under the precondition every entry of both arrays is a real. -/
theorem real_of_pre (x0 : FVec Ideal S16384x256 .f32) (x1 : FVec Ideal S1024x256 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => ?_, fun i => ?_⟩
  · have he := Host.reduce_andi_all _ _ _ _ _ ha i
    have hc : Ideal.cmp .olt (max (x0 i) (-(x0 i))) (Ideal.ofBits .f32 0x7F800000#32) = 1#1 := he
    rw [Retrieval.Consts.ofBits_inf] at hc
    exact real_of_abs_lt_top _ (lt_of_cmp_olt hc)
  · have he := Host.reduce_andi_all _ _ _ _ _ hb i
    have hc : Ideal.cmp .olt (max (x1 i) (-(x1 i))) (Ideal.ofBits .f32 0x7F800000#32) = 1#1 := he
    rw [Retrieval.Consts.ofBits_inf] at hc
    exact real_of_abs_lt_top _ (lt_of_cmp_olt hc)

end Cert.Pre_finite_inputs.Finite

end
-- ==== Proof.Shift.lean ====
/-
  The reference's shift is admissible for the law: on real arrays, the running maximum of a row's similarities, started
  from −∞ and taken over the 1024 memory rows, is at least one of them and below ⊤ (it is one of finitely many reals).
-/
import proofs.«125039_g11441792876600_week1_w4_507_4_alg».proof.Proof.Spec

noncomputable section

namespace Retrieval

open Idealize.ShloMosaic Idealize.ShloMosaic.ValueIdx

/-- The row maximum of the division form's similarities on real arrays: bounded below by a similarity, below ⊤. -/
theorem rowmax_bounds {d : ℝ} (hd : 0 < d) (z : SQ.Idx → EReal) (mem : SMem.Idx → EReal)
    (hz : ∀ i, ∃ r : ℝ, z i = (r : EReal)) (hm : ∀ i, ∃ r : ℝ, mem i = (r : EReal)) (b : Fin 16384) :
    (∃ n, simR (d : EReal) (qrow z b) (mrows mem) n
        ≤ (Finset.univ : Finset (Fin 1024)).fold max ⊥ (fun n => simR (d : EReal) (qrow z b) (mrows mem) n))
      ∧ (Finset.univ : Finset (Fin 1024)).fold max ⊥ (fun n => simR (d : EReal) (qrow z b) (mrows mem) n) < ⊤ := by
  choose zr hzr using hz
  choose mr hmr using hm
  have ez : qrow z b = fun k => ((zr (ix2 b k) : ℝ) : EReal) := funext fun k => hzr _
  have em : mrows mem = fun n k => ((mr (ix2 n k) : ℝ) : EReal) := funext fun n => funext fun k => hmr _
  rw [ez, em]
  exact fold_max_bounds _ fun n => ⟨_, simR_coe hd (fun k => zr (ix2 b k)) (fun n k => mr (ix2 n k)) n⟩

end Retrieval

end
-- ==== Proof.Bridge.lean ====
/-
  The bridge: on arrays of reals, the reference's result (the division form with the program's own threshold word and row
  maxima, RefRead.lean) is the kernel's result (the reciprocal-square-root form with the named squared threshold,
  KernelArray.lean). The threshold word denotes `eps = 2305843 / 2⁶¹`, the named constant denotes `eps²`, and each row
  maximum is a real bounded below by a similarity of its row — the hypotheses of the law (Spec.lean, Law.lean).
-/
import proofs.«125039_g11441792876600_week1_w4_507_4_alg».proof.Proof.RefRead
import proofs.«125039_g11441792876600_week1_w4_507_4_alg».proof.Proof.KernelPay
import proofs.«125039_g11441792876600_week1_w4_507_4_alg».proof.Proof.Shift

noncomputable section

namespace Cert.Bridge

open Idealize.ShloMosaic Retrieval
open Cert.ReferenceIdeal (S16384x256 S1024x256)

theorem result_bridge (a0 : (⟨S16384x256, .f32⟩ : BufTy).Contents (Elt Ideal)) (a1 : (⟨S1024x256, .f32⟩ : BufTy).Contents (Elt Ideal))
    (hz : ∀ i, ∃ r : ℝ, a0 i = (r : EReal)) (hm : ∀ i, ∃ r : ℝ, a1 i = (r : EReal)) :
    GR Cert.ReferenceIdeal.RefValue.dW (Cert.ReferenceIdeal.RefValue.rowMax a0 a1) a0 a1
      = GK Cert.KernelIdeal.Body.cW a0 a1 := by
  have hd : Cert.ReferenceIdeal.RefValue.dW = ((Retrieval.Consts.eps : ℝ) : EReal) := Retrieval.Consts.ofBits_eps
  have hmx : ∀ b, Cert.ReferenceIdeal.RefValue.rowMax a0 a1 b
      = (Finset.univ : Finset (Fin 1024)).fold max ⊥ (fun n => simR ((Retrieval.Consts.eps : ℝ) : EReal) (qrow a0 b) (mrows a1) n) :=
    fun b => by rw [Cert.ReferenceIdeal.RefValue.rowMax_eq, hd]
  have hb := fun b => rowmax_bounds Retrieval.Consts.eps_pos a0 a1 hz hm b
  rw [hd, Cert.KernelIdeal.Body.cW_eq]
  exact (GK_eq_GR Retrieval.Consts.eps_pos a0 a1 _ hz hm (fun b => by rw [hmx b]; exact (hb b).1)
    (fun b => by rw [hmx b]; exact (hb b).2)).symm

end Cert.Bridge

end
-- ==== Proof.lean ====
/-
  Softmax memory retrieval, fused in one kernel, against its jnp reference: `Cert.Claim`.

  Both programs compute, for a query array z [16384, 256] and a memory [1024, 256],
      out[b, h] = Σ_n softmax_n (⟨ẑ_b, m̂_n⟩) · memory[n, h],   ẑ_b = z_b / max (‖z_b‖, ε),  m̂_n = memory_n / max (‖memory_n‖, ε).
  The reference divides by `max (√Σz², ε)`, subtracts the row maximum under the exponential and normalises every weight.
  The kernel multiplies by the reciprocal square root of `max (Σz², ε²)`, exponentiates the similarities as they are and
  divides once after the second contraction; its 16 grid points each handle 1024 query rows against the whole memory.
  At the ideal values the two agree on finite inputs: `√(max (s, ε²)) = max (√s, ε)`, the shift cancels in the quotient,
  and the division distributes over the finite sum (Law.lean). The kernel's `ε²` is the named constant that denotes the
  exact square of the reference's threshold word (the two `preserves` conjuncts).

  The pieces: KernelPay.lean (the body at an index), KernelArray.lean (blocks to the array, the kernel's run),
  RefRead.lean (the reference stage by stage), Finite.lean (the precondition gives reals), Shift.lean and Bridge.lean
  (the law's hypotheses and the two arrays as one).
-/
import proofs.«125039_g11441792876600_week1_w4_507_4_alg».proof.Defs
import proofs.«125039_g11441792876600_week1_w4_507_4_alg».proof.Proof.Gen.Kernel
import proofs.«125039_g11441792876600_week1_w4_507_4_alg».proof.Proof.Gen.Kernel.Skeleton
import proofs.«125039_g11441792876600_week1_w4_507_4_alg».proof.Proof.Gen.Kernel.Launch
import proofs.«125039_g11441792876600_week1_w4_507_4_alg».proof.Proof.Gen.Kernel.Points
import proofs.«125039_g11441792876600_week1_w4_507_4_alg».proof.Proof.Gen.Kernel.Frame
import proofs.«125039_g11441792876600_week1_w4_507_4_alg».proof.Proof.Gen.KernelIdeal
import proofs.«125039_g11441792876600_week1_w4_507_4_alg».proof.Proof.Gen.KernelIdeal.Skeleton
import proofs.«125039_g11441792876600_week1_w4_507_4_alg».proof.Proof.Gen.KernelIdeal.Launch
import proofs.«125039_g11441792876600_week1_w4_507_4_alg».proof.Proof.Gen.KernelIdeal.Points
import proofs.«125039_g11441792876600_week1_w4_507_4_alg».proof.Proof.Gen.KernelIdeal.Frame
import proofs.«125039_g11441792876600_week1_w4_507_4_alg».proof.Proof.Gen.ReferenceIdeal
import proofs.«125039_g11441792876600_week1_w4_507_4_alg».proof.Proof.Gen.Pre_finite_inputs
import proofs.«125039_g11441792876600_week1_w4_507_4_alg».proof.Proof.Gen.KernelIdeal.Value
import proofs.«125039_g11441792876600_week1_w4_507_4_alg».proof.Proof.Gen.ReferenceIdeal.Run
import proofs.«125039_g11441792876600_week1_w4_507_4_alg».proof.Proof.Gen.ReferenceIdeal.Read
import proofs.«125039_g11441792876600_week1_w4_507_4_alg».proof.Proof.KernelArray
import proofs.«125039_g11441792876600_week1_w4_507_4_alg».proof.Proof.RefRead
import proofs.«125039_g11441792876600_week1_w4_507_4_alg».proof.Proof.Finite
import proofs.«125039_g11441792876600_week1_w4_507_4_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two places the body spells the squared threshold: each is the named constant, which denotes `(2305843 / 2⁶¹)²`. -/
theorem preserves : Cert.preserves_Kernel_KernelIdeal :=
  ⟨IdealRules.named_const.statement Cert.KernelIdeal.κ "norm_eps_sq" .f32 0x179ABE15#32
      ((5316911940649 / 5316911983139663491615228241121378304 : ℝ) : EReal) rfl,
   IdealRules.named_const.statement Cert.KernelIdeal.κ "norm_eps_sq" .f32 0x179ABE15#32
      ((5316911940649 / 5316911983139663491615228241121378304 : ℝ) : EReal) rfl⟩

/-- From memories that agree on the two arguments, both programs end with the reciprocal-square-root form of the
    retrieval of those arguments: the kernel by its run, the reference by its run read stage by stage and the bridge,
    whose finiteness hypotheses the precondition supplies. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hz, hm⟩ := Cert.Pre_finite_inputs.Finite.real_of_pre _ _ (hpre c)
  rw [Cert.ReferenceIdeal.Read.val_main_v23_eq, (hagree c).1, (hagree c).2, Cert.ReferenceIdeal.RefValue.result_eq]
  exact Cert.Bridge.result_bridge _ _ hz hm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
